-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S65536x8 : Shape := ⟨2, ![65536, 8]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S4096x4096 .f32) (main_arg1 : IVec S4096x512 32) (main_arg2 : FVec F S65536x8 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S65536x8 .f32 := Host.absf main_arg2
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  main_v8
-- ==== Kernel.lean ====
abbrev S4096x4096 : Shape := ⟨2, ![4096, 4096]⟩
abbrev S4096x512 : Shape := ⟨2, ![4096, 512]⟩
abbrev S65536x8 : Shape := ⟨2, ![65536, 8]⟩
abbrev S_ : Shape := ⟨0, ![]⟩
abbrev S4096x512x1 : Shape := ⟨3, ![4096, 512, 1]⟩
abbrev S1 : Shape := ⟨1, ![1]⟩
abbrev S1x1x1 : Shape := ⟨3, ![1, 1, 1]⟩
abbrev S4096x512x8 : Shape := ⟨3, ![4096, 512, 8]⟩
abbrev S1024x1024 : Shape := ⟨2, ![1024, 1024]⟩

abbrev nBuf : Space → Nat
  | .hbm => 30
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x512, .i32⟩
  | .hbm, ⟨2, _⟩ => ⟨S65536x8, .f32⟩
  | .hbm, ⟨3, _⟩ => ⟨S_, .i32⟩
  | .hbm, ⟨4, _⟩ => ⟨S4096x512, .i32⟩
  | .hbm, ⟨5, _⟩ => ⟨S4096x512, .i1⟩
  | .hbm, ⟨6, _⟩ => ⟨S_, .i32⟩
  | .hbm, ⟨7, _⟩ => ⟨S4096x512, .i32⟩
  | .hbm, ⟨8, _⟩ => ⟨S4096x512, .i32⟩
  | .hbm, ⟨9, _⟩ => ⟨S4096x512, .i32⟩
  | .hbm, ⟨10, _⟩ => ⟨S4096x512x1, .i32⟩
  | .hbm, ⟨11, _⟩ => ⟨S1, .i32⟩
  | .hbm, ⟨12, _⟩ => ⟨S_, .i32⟩
  | .hbm, ⟨13, _⟩ => ⟨S4096x512x1, .i32⟩
  | .hbm, ⟨14, _⟩ => ⟨S4096x512x1, .i1⟩
  | .hbm, ⟨15, _⟩ => ⟨S1x1x1, .i32⟩
  | .hbm, ⟨16, _⟩ => ⟨S4096x512x1, .i32⟩
  | .hbm, ⟨17, _⟩ => ⟨S4096x512x1, .i1⟩
  | .hbm, ⟨18, _⟩ => ⟨S4096x512x1, .i1⟩
  | .hbm, ⟨19, _⟩ => ⟨S_, .i1⟩
  | .hbm, ⟨20, _⟩ => ⟨S4096x512, .i1⟩
  | .hbm, ⟨21, _⟩ => ⟨S4096x512x8, .f32⟩
  | .hbm, ⟨22, _⟩ => ⟨S4096x512x8, .i1⟩
  | .hbm, ⟨23, _⟩ => ⟨S_, .f32⟩
  | .hbm, ⟨24, _⟩ => ⟨S4096x512x8, .f32⟩
  | .hbm, ⟨25, _⟩ => ⟨S4096x512x8, .f32⟩
  | .hbm, ⟨26, _⟩ => ⟨S4096x4096, .f32⟩
  | .hbm, ⟨27, _⟩ => ⟨S4096x4096, .bf16⟩
  | .hbm, ⟨28, _⟩ => ⟨S4096x4096, .bf16⟩
  | .hbm, ⟨29, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_c : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_c_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_c_1 : Ref sig .tc := ⟨.hbm, 11, rfl⟩
abbrev main_call0_call0_c_2 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_c_3 : Ref sig .tc := ⟨.hbm, 19, rfl⟩
abbrev main_call0_call0_v12 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst : Ref sig .tc := ⟨.hbm, 23, rfl⟩
abbrev main_call0_call0_v15 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x8_0_1 : S4096x512.BroadcastsInDim S4096x512x8 (![0, 1] : Fin 2 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  gather_S65536x8_S4096x512x1_S4096x512x8_2_0_n_n_0_2_18_wf : GatherDims.WF S65536x8 S4096x512x1 S4096x512x8 [2] [0] [] [0] [] 2 ![1, 8]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_call0_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x512 : Shape := ⟨2, ![4096, 512]⟩
abbrev S65536x8 : Shape := ⟨2, ![65536, 8]⟩
abbrev S_ : Shape := ⟨0, ![]⟩
abbrev S4096x512x1 : Shape := ⟨3, ![4096, 512, 1]⟩
abbrev S1 : Shape := ⟨1, ![1]⟩
abbrev S1x1x1 : Shape := ⟨3, ![1, 1, 1]⟩
abbrev S4096x512x8 : Shape := ⟨3, ![4096, 512, 8]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .i32⟩
  | .hbm, ⟨2, _⟩ => ⟨S65536x8, .f32⟩
  | .hbm, ⟨3, _⟩ => ⟨S_, .i32⟩
  | .hbm, ⟨4, _⟩ => ⟨S4096x512, .i32⟩
  | .hbm, ⟨5, _⟩ => ⟨S4096x512, .i1⟩
  | .hbm, ⟨6, _⟩ => ⟨S_, .i32⟩
  | .hbm, ⟨7, _⟩ => ⟨S4096x512, .i32⟩
  | .hbm, ⟨8, _⟩ => ⟨S4096x512, .i32⟩
  | .hbm, ⟨9, _⟩ => ⟨S4096x512, .i32⟩
  | .hbm, ⟨10, _⟩ => ⟨S4096x512x1, .i32⟩
  | .hbm, ⟨11, _⟩ => ⟨S1, .i32⟩
  | .hbm, ⟨12, _⟩ => ⟨S_, .i32⟩
  | .hbm, ⟨13, _⟩ => ⟨S4096x512x1, .i32⟩
  | .hbm, ⟨14, _⟩ => ⟨S4096x512x1, .i1⟩
  | .hbm, ⟨15, _⟩ => ⟨S1x1x1, .i32⟩
  | .hbm, ⟨16, _⟩ => ⟨S4096x512x1, .i32⟩
  | .hbm, ⟨17, _⟩ => ⟨S4096x512x1, .i1⟩
  | .hbm, ⟨18, _⟩ => ⟨S4096x512x1, .i1⟩
  | .hbm, ⟨19, _⟩ => ⟨S_, .i1⟩
  | .hbm, ⟨20, _⟩ => ⟨S4096x512, .i1⟩
  | .hbm, ⟨21, _⟩ => ⟨S4096x512x8, .f32⟩
  | .hbm, ⟨22, _⟩ => ⟨S4096x512x8, .i1⟩
  | .hbm, ⟨23, _⟩ => ⟨S_, .f32⟩
  | .hbm, ⟨24, _⟩ => ⟨S4096x512x8, .f32⟩
  | .hbm, ⟨25, _⟩ => ⟨S4096x512x8, .f32⟩
  | .hbm, ⟨26, _⟩ => ⟨S4096x4096, .f32⟩
  | .hbm, ⟨27, _⟩ => ⟨S4096x4096, .f32⟩
  | .hbm, ⟨28, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x8_0_1 : S4096x512.BroadcastsInDim S4096x512x8 (![0, 1] : Fin 2 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  transposes_S4096x4096_S4096x4096_1_0 : S4096x4096.Transposes [1, 0] S4096x4096
  gather_S65536x8_S4096x512x1_S4096x512x8_2_0_n_n_0_2_18_wf : GatherDims.WF S65536x8 S4096x512x1 S4096x512x8 [2] [0] [] [0] [] 2 ![1, 8]
  dot_S4096x4096_S4096x4096_S4096x4096_1_0_0_1_n_n_wf : DotDims.WF S4096x4096 S4096x4096 S4096x4096 [1] [0] [0] [1] [] []

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point's body leaves behind, as ONE value.

  The kernel multiplies a [4096, 4096] matrix by the transpose of another in 1024 x 1024 tiles. A grid point
  (i, j, k) holds row tile i of the left operand and row tile j of the right operand, both restricted to column
  tile k, and a 1024 x 1024 accumulator that lives across the four points k = 0, 1, 2, 3 of one output tile (i, j).
  Its body does one of three things:
    first step  (k = 0): store zeros into the accumulator, then add the product of the two operand tiles to it;
    middle step (k = 1, 2): add the product of the two operand tiles to what the accumulator held;
    last step   (k = 3): the same, and copy the accumulator's new contents into the output tile.
  Each lemma below reads the stores of one case back as a single function of the loaded tiles: the pure term of the
  body's arithmetic (an update "accumulator + left tile times right tile transposed") applied to what the point found.
  They hold for any interpretation of the floats.
-/
import proofs.«142544_j86363202388343_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a store or load of a whole tile. -/
theorem hz : (![0, 0] : Fin 2 → Nat) = fun _ => 0 := funext fun a => by fin_cases a <;> rfl

/-- Between points 1 and 2 of a run of four (neither the first nor the last step over the shared axis): the body
    leaves in the accumulator what it held plus the product of the two operand blocks. -/
theorem acc_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs : Vec F S1024x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]

/-- At the first step over the shared axis the body first stores the zero block into the accumulator, reads it
    back, and leaves zero plus the product of the two operand blocks. -/
theorem acc_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At the last step the accumulator is updated as at the steps between, -/
theorem acc_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]

/-- and the output block receives the accumulator's new contents. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.Pieces

end
-- ==== Proof.LibMatmulRowsByRows.lean ====
/-
  A matrix product that contracts the LAST axis of both operands ("nk,mk→nm": rows against rows), over the
  extended reals, for any extents.

  For A of shape [N, K] and B of shape [M, K] and the dimension numbers contracting [1] × [1], free axes [0] and [0],
  no batch axis, the product's entry (n, m) is  Σₖ A(n, k) · B(m, k).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  Why a proof is needed at all: the contraction is indexed by the one-axis contraction shape, and each operand's
  index at (output entry, contraction index) is computed from the lists by position; here the positions are read
  once, symbolically in N, K, M, and the sum is re-indexed by the column k : Fin K.
-/
import Idealize.ShloMosaic.PureOps.Ideal
import Idealize.ShloMosaic.PureOps.Ideal.Laws
import Idealize.ShloMosaic.Lib.ValueIdx

noncomputable section

namespace Cert.RowsByRows

open Idealize.ShloMosaic Idealize.ShloMosaic.ValueIdx

variable {N K M : Nat}

/-- The dimension numbers of "nk,mk→nm": both operands contracted on axis 1, free on axis 0, no batch axis. -/
structure Is (d : DotDims ⟨2, ![N, K]⟩ ⟨2, ![M, K]⟩ ⟨2, ![N, M]⟩) : Prop where
  lc : d.lhsContracting = [1]
  rc : d.rhsContracting = [1]
  ln : d.lhsNonContracting = [0]
  rn : d.rhsNonContracting = [0]
  lb : d.lhsBatch = []
  rb : d.rhsBatch = []

/-- The side condition a record with these lists carries. -/
abbrev WFt (N K M : Nat) : Prop := DotDims.WF (⟨2, ![N, K]⟩ : Shape) ⟨2, ![M, K]⟩ ⟨2, ![N, M]⟩ [1] [1] [0] [0] [] []

/-- The record with these lists, over a given proof of its side condition. -/
abbrev dims (wf : WFt N K M) : DotDims ⟨2, ![N, K]⟩ ⟨2, ![M, K]⟩ ⟨2, ![N, M]⟩ := ⟨[1], [1], [0], [0], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row at output entry i is i's COLUMN. -/
theorem rhs_row (wf : WFt N K M) (i : (⟨2, ![N, M]⟩ : Shape).Idx) (k : (dims wf).contr.Idx) :
    ((dims wf).rhsIdx i k 0).val = (i 1).val := by
  unfold DotDims.rhsIdx
  rw [dif_neg (show ¬(0 : Fin (⟨2, ![M, K]⟩ : Shape).rank) ∈ (dims wf).rhsBatch from List.not_mem_nil),
    dif_pos (show (0 : Fin (⟨2, ![M, K]⟩ : Shape).rank) ∈ (dims wf).rhsNonContracting from List.mem_singleton.2 rfl)]
  rfl

/-- The right operand's column is the contraction index. -/
theorem rhs_col (wf : WFt N K M) (i : (⟨2, ![N, M]⟩ : Shape).Idx) (k : (dims wf).contr.Idx) :
    ((dims wf).rhsIdx i k 1).val = (k ⟨0, Nat.one_pos⟩).val :=
  (dims wf).rhsIdx_val_of_single rfl i k

/-- The contraction at entry (n, c), re-indexed by the shared column, for the record spelt with the lists. -/
theorem sum_dims (wf : WFt N K M) {φ₁ φ₂ : FTy}
    (A : FVec Ideal ⟨2, ![N, K]⟩ φ₁) (B : FVec Ideal ⟨2, ![M, K]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 c k) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 c k :=
    funext fun a => Fin.ext (by
      match a with
      | ⟨0, _⟩ => exact rhs_row wf _ _
      | ⟨1, _⟩ => exact (rhs_col wf _ _).trans hk)
  rw [el, er]

/-- The same for ANY record that has the lists: it is the record spelt with them. -/
theorem sum_apply (d : DotDims ⟨2, ![N, K]⟩ ⟨2, ![M, K]⟩ ⟨2, ![N, M]⟩) (h : Is d) {φ₁ φ₂ : FTy}
    (A : FVec Ideal ⟨2, ![N, K]⟩ φ₁) (B : FVec Ideal ⟨2, ![M, K]⟩ φ₂) (n : Fin N) (c : Fin M) :
    ∑ k : d.contr.Idx, A (d.lhsIdx (ix2 n c) k) * B (d.rhsIdx (ix2 n c) k) = ∑ k : Fin K, A (ix2 n k) * B (ix2 c k) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(c, k). -/
theorem matmul_zero_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    matmul d prec A B (constant (F := Ideal) ⟨2, ![N, M]⟩ .f32 0x00000000#32) (ix2 n c)
      = ∑ k : Fin K, A (ix2 n k) * B (ix2 c k) := by
  simp only [matmul]
  rw [Ideal.matmul_constant_zero_apply]
  exact sum_apply d h A B n c

/-- The HOST's general dot product, at entry (n, c): the same sum. -/
theorem dotGeneral_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    Host.dotGeneral d prec A B (ix2 n c) = ∑ k : Fin K, A (ix2 n k) * B (ix2 c k) := by
  simp only [Host.dotGeneral]
  rw [Ideal.dotGeneral_apply]
  exact sum_apply d h A B n c

end Cert.RowsByRows

end
-- ==== Proof.TileUpdate.lean ====
/-
  One step of the accumulation, read at an entry, over the extended reals.

  The body's update takes the accumulator tile acc [1024, 1024] and two operand tiles a, b [1024, 1024] and
  returns  acc + a * transpose(b):  entry (p, q) is  acc(p, q) + sum over k < 1024 of a(p, k) * b(q, k).
  The matrix unit's product starts from the zero tile, so over the extended reals it is the plain contraction
  (rows of a against rows of b), and the addition is entrywise. The zero tile stored at the first step reads 0.
-/
import proofs.«142544_j86363202388343_1_alg».proof.Proof.Gen.KernelIdeal.Skeleton
import proofs.«142544_j86363202388343_1_alg».proof.Proof.Gen.KernelIdeal
import proofs.«142544_j86363202388343_1_alg».proof.Proof.LibMatmulRowsByRows
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-- The tile product contracts axis 1 of both operands and keeps axis 0 of each. -/
theorem dot_is : Cert.RowsByRows.Is (N := 1024) (K := 1024) (M := 1024) dot_S1024x1024_S1024x1024_S1024x1024_1_1_0_0_n_n :=
  ⟨rfl, rfl, rfl, rfl, rfl, rfl⟩

/-- The zero tile reads 0 at every entry. -/
theorem zero_apply (p q : Fin 1024) : k0_pay1 (F := Ideal) (ix2 p q) = 0 := by
  unfold k0_pay1
  simp only [shapeCast_self]
  exact Ideal.ofBits_zero_f32

/-- The update at entry (p, q): the accumulator's entry plus the rows p of a and q of b contracted. -/
theorem update_apply (acc : FVec Ideal S1024x1024 .f32) (a b : FVec Ideal S1024x1024 .bf16) (p q : Fin 1024) :
    k0_pay2 (F := Ideal) acc a b (ix2 p q) = acc (ix2 p q) + ∑ k : Fin 1024, a (ix2 p k) * b (ix2 q k) := by
  unfold k0_pay2
  simp only [shapeCast_self]
  refine (addf_apply _ _ _).trans ?_
  exact congrArg (acc (ix2 p q) + ·) (Cert.RowsByRows.matmul_zero_apply _ dot_is none a b p q)

end Cert.KernelIdeal.Tile

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.Spec.lean ====
/-
  The specification, and the one law that joins the two programs.

  Both programs compute, from the input matrix x [4096, 4096] and the weight matrix w [4096, 4096], the product of
  x with the transpose of w: entry (i, j) is the sum over k < 4096 of x(i, k) * w(j, k), over the extended reals.
  The reference takes the sum in one go. The kernel takes it tile by tile along k: it starts from 0 and adds, for
  s = 0, 1, 2, 3 in turn, the share of the columns 1024 s .. 1024 s + 1023. The two agree because a sum over 4096
  terms is the sum of its four consecutive runs of 1024 terms: only associativity of addition is used, which holds
  on the extended reals without any finiteness assumption (0 + a = a and (a + b) + c = a + (b + c) hold for
  infinite terms as well).
-/
import proofs.«142544_j86363202388343_1_alg».proof.Proof.LibTileSum
import Idealize.ShloMosaic.PureOps.Ideal
import Idealize.ShloMosaic.Lib.ValueIdx

noncomputable section

open Idealize.ShloMosaic Idealize.ShloMosaic.ValueIdx

namespace Cert.Gemm

/-- A [4096, 4096] matrix of extended reals. -/
abbrev Mat : Type := FVec Ideal ⟨2, ![4096, 4096]⟩ .f32

/-- Place r of tile b on an axis of extent 4096, as 1024 b + r reduced modulo 4096 (so that it is defined for
    every natural b; for b < 4 nothing is reduced). -/
def at4096 (b : ℕ) (r : Fin 1024) : Fin 4096 := ⟨(1024 * b + r.val) % 4096, Nat.mod_lt _ (by decide)⟩

theorem at4096_val (b : ℕ) (hb : b < 4) (r : Fin 1024) : (at4096 b r).val = 1024 * b + r.val := by
  have := r.isLt
  show (1024 * b + r.val) % 4096 = _
  omega

/-- The product of x with the transpose of w. -/
def product (x w : Mat) : Mat := fun idx =>
  ∑ k : Fin 4096, x (ix2 (⟨(idx 0).val, (idx 0).isLt⟩ : Fin 4096) k) * w (ix2 (⟨(idx 1).val, (idx 1).isLt⟩ : Fin 4096) k)

theorem product_apply (x w : Mat) (i j : Fin 4096) :
    product x w (ix2 i j) = ∑ k : Fin 4096, x (ix2 i k) * w (ix2 j k) := rfl

/-- The k-th term of entry (i, j)'s sum, for every natural k (reduced modulo 4096). -/
def term (x w : Mat) (i j : Fin 4096) (n : ℕ) : EReal :=
  x (ix2 i (⟨n % 4096, Nat.mod_lt _ (by decide)⟩ : Fin 4096)) * w (ix2 j (⟨n % 4096, Nat.mod_lt _ (by decide)⟩ : Fin 4096))

/-- Column tile s's share of entry (i, j). -/
def tileSum (x w : Mat) (i j : Fin 4096) (s : ℕ) : EReal :=
  ∑ kk : Fin 1024, x (ix2 i (at4096 s kk)) * w (ix2 j (at4096 s kk))

/-- Starting from 0 and adding the four column tiles' shares in order gives the whole sum. -/
theorem four_tiles (x w : Mat) (i j : Fin 4096) :
    (((0 + tileSum x w i j 0) + tileSum x w i j 1) + tileSum x w i j 2) + tileSum x w i j 3 = product x w (ix2 i j) := by
  have h := Cert.TileSum.sum_tiles 1024 (term x w i j) 4
  rw [Finset.sum_range_succ, Finset.sum_range_succ, Finset.sum_range_succ, Finset.sum_range_succ,
    Finset.sum_range_zero] at h
  rw [product_apply]
  refine Eq.trans h ?_
  show (∑ k : Fin 4096, term x w i j k.val) = _
  refine Finset.sum_congr rfl fun k _ => ?_
  have hk : (⟨k.val % 4096, Nat.mod_lt _ (by decide)⟩ : Fin 4096) = k := Fin.ext (Nat.mod_eq_of_lt k.isLt)
  unfold term
  rw [hk]

end Cert.Gemm

end
-- ==== Proof.BlockReads.lean ====
/-
  Which entries of the whole arrays a grid point's tiles hold.

  The grid is 4 x 4 x 4, a point t = 16 i + 4 j + k. Its left tile is rows 1024 i .. 1024 i + 1023 and columns
  1024 k .. 1024 k + 1023 of the left array; its right tile is rows 1024 j .. and the same columns of the right
  array; the output tile is rows 1024 i .. and columns 1024 j .. of the result. The three index maps are decided
  once over the 64 points; an entry's place is then tile index times 1024 plus the place inside the tile.
-/
import proofs.«142544_j86363202388343_1_alg».proof.Proof.Gen.KernelIdeal.Frame
import proofs.«142544_j86363202388343_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]

/-- Point t = 16 i + 4 j + k reads the left array's tile (i, k), -/
theorem idx_left : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)

/-- the right array's tile (j, k), -/
theorem idx_right : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)

/-- and owns the result's tile (i, j). -/
theorem idx_out : ∀ t : Fin cfg0.N, win0_2.index t (0 : Fin 2) = t.val / 16 ∧ win0_2.index t (1 : Fin 2) = t.val / 4 % 4 :=
  (by decide +kernel : ∀ t : Fin grid0.N, win0_2.index t (0 : Fin 2) = t.val / 16 ∧ win0_2.index t (1 : Fin 2) = t.val / 4 % 4)

open Cert.Gemm (at4096)

theorem point_lt (t : Fin cfg0.N) : t.val < 64 := lt_of_lt_of_eq t.isLt (show cfg0.N = 64 from N_0)

/-- The left tile at point t, entry (p, k), is the array's entry (1024 (t / 16) + p, 1024 (t % 4) + k). -/
theorem left_read (A : (⟨S4096x4096, .bf16⟩ : BufTy).Contents (Elt F)) (t : Fin cfg0.N) (p k : Fin 1024) :
    ((cfg0.win 0).blk t).view.read (Elt F) A (ix2 p k)
      = A (ix2 (at4096 (t.val / 16) p) (at4096 (t.val % 4) k)) := by
  rw [View.read_apply]
  refine congrArg A ?_
  have ht := point_lt t
  have hp := p.isLt
  have hk := k.isLt
  funext a
  apply Fin.ext
  match a with
  | ⟨0, _⟩ => show win0_0.index t 0 * 1024 + 1 * p.val = (1024 * (t.val / 16) + p.val) % 4096; rw [(idx_left t).1]; omega
  | ⟨1, _⟩ => show win0_0.index t 1 * 1024 + 1 * k.val = (1024 * (t.val % 4) + k.val) % 4096; rw [(idx_left t).2]; omega

/-- The right tile at point t, entry (q, k), is the array's entry (1024 (t / 4 % 4) + q, 1024 (t % 4) + k). -/
theorem right_read (A : (⟨S4096x4096, .bf16⟩ : BufTy).Contents (Elt F)) (t : Fin cfg0.N) (q k : Fin 1024) :
    ((cfg0.win 1).blk t).view.read (Elt F) A (ix2 q k)
      = A (ix2 (at4096 (t.val / 4 % 4) q) (at4096 (t.val % 4) k)) := by
  rw [View.read_apply]
  refine congrArg A ?_
  have ht := point_lt t
  have hq := q.isLt
  have hk := k.isLt
  funext a
  apply Fin.ext
  match a with
  | ⟨0, _⟩ => show win0_1.index t 0 * 1024 + 1 * q.val = (1024 * (t.val / 4 % 4) + q.val) % 4096; rw [(idx_right t).1]; omega
  | ⟨1, _⟩ => show win0_1.index t 1 * 1024 + 1 * k.val = (1024 * (t.val % 4) + k.val) % 4096; rw [(idx_right t).2]; omega

/-- The output tile at point t, entry (p, q), is the result's entry (1024 (t / 16) + p, 1024 (t / 4 % 4) + q). -/
theorem out_read (A : (⟨S4096x4096, .f32⟩ : BufTy).Contents (Elt F)) (t : Fin cfg0.N) (p q : Fin 1024) :
    ((cfg0.win 2).blk t).view.read (Elt F) A (ix2 p q)
      = A (ix2 (at4096 (t.val / 16) p) (at4096 (t.val / 4 % 4) q)) := by
  rw [View.read_apply]
  refine congrArg A ?_
  have ht := point_lt t
  have hp := p.isLt
  have hq := q.isLt
  funext a
  apply Fin.ext
  match a with
  | ⟨0, _⟩ => show win0_2.index t 0 * 1024 + 1 * p.val = (1024 * (t.val / 16) + p.val) % 4096; rw [(idx_out t).1]; omega
  | ⟨1, _⟩ => show win0_2.index t 1 * 1024 + 1 * q.val = (1024 * (t.val / 4 % 4) + q.val) % 4096; rw [(idx_out t).2]; omega

/-- Every entry (r, s) of the result lies in the output tile of a point that writes its tile back: the last
    step k = 3 of tile (r / 1024, s / 1024). -/
theorem covered (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 64 := N_0
  let t : Fin cfg0.N := ⟨16 * ((i 0).val / 1024) + 4 * ((i 1).val / 1024) + 3, by rw [hN]; omega⟩
  have htv : t.val = 16 * ((i 0).val / 1024) + 4 * ((i 1).val / 1024) + 3 := rfl
  refine ⟨t, (flush0_2 t).mpr (by rw [htv]; omega), ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(idx_out t).1, htv]; omega
  | ⟨1, _⟩ =>
    show win0_2.index t 1 * 1024 ≤ (i 1).val ∧ (i 1).val < win0_2.index t 1 * 1024 + 1024
    rw [(idx_out t).2, htv]; omega

end Cert.KernelIdeal.Blocks

end
-- ==== Proof.HostPrefix.lean ====
/-
  What the two staged arrays hold when the kernel is launched.

  Before the launch the host gathers rows of the codebook: an index below zero is wrapped by adding 65536, a row is
  kept when its wrapped index lies in 0 .. 65535 and is otherwise filled with the not-a-number word; the gathered
  [4096, 512, 8] rows are reshaped to the [4096, 4096] weight matrix W. The kernel's left operand is the input
  matrix and its right operand is W, each after a change of float format (which over the extended reals changes
  nothing). The gather's own value is never opened: it is carried as one function of the codebook and the indices.
-/
import proofs.«142544_j86363202388343_1_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.HostPrefix

open Cert.KernelIdeal Cert.KernelIdeal.Gen

variable {F : FTy → Type} [FloatOps F]

/-- An index below zero counts from the end: 65536 is added to it. -/
def wrapped (q : (⟨S4096x512, .i32⟩ : BufTy).Contents (Elt F)) : (⟨S4096x512, .i32⟩ : BufTy).Contents (Elt F) :=
  select (cmpi .slt q (broadcastInDim S4096x512 ![] bcast_S_S4096x512 (constantI S_ 32 0#32)))
    (addi q (broadcastInDim S4096x512 ![] bcast_S_S4096x512 (constantI S_ 32 65536#32))) q

/-- The wrapped indices as one-component index vectors. -/
def rowIndex (q : (⟨S4096x512, .i32⟩ : BufTy).Contents (Elt F)) : (⟨S4096x512x1, .i32⟩ : BufTy).Contents (Elt F) :=
  broadcastInDim S4096x512x1 ![0, 1] bcast_S4096x512_S4096x512x1_0_1 (wrapped (F := F) q)

/-- Whether a wrapped index names a row of the codebook: 0 ≤ index ≤ 65535. -/
def inRange (q : (⟨S4096x512, .i32⟩ : BufTy).Contents (Elt F)) : (⟨S4096x512, .i1⟩ : BufTy).Contents (Elt F) :=
  Host.reduce IntOp.andi
    (andi (cmpi .sge (rowIndex (F := F) q) (broadcastInDim S4096x512x1 ![] bcast_S_S4096x512x1 (constantI S_ 32 0#32)))
      (cmpi .sle (rowIndex (F := F) q) (broadcastInDim S4096x512x1 ![0, 1, 2] bcast_S1x1x1_S4096x512x1_0_1_2
        (broadcastInDim S1x1x1 ![2] bcast_S1_S1x1x1_2 (constantI S1 32 65535#32)))))
    (constantI S_ 1 1#1) reducesTo_S4096x512x1_S4096x512_d2 h_S_

/-- The gathered codebook rows: row (r, s) is the codebook's row at the wrapped index q(r, s) when that is in
    range, and the not-a-number word otherwise. -/
def taken (grid : (⟨S65536x8, .f32⟩ : BufTy).Contents (Elt F)) (q : (⟨S4096x512, .i32⟩ : BufTy).Contents (Elt F)) :
    (⟨S4096x512x8, .f32⟩ : BufTy).Contents (Elt F) :=
  select (broadcastInDim S4096x512x8 ![0, 1] bcast_S4096x512_S4096x512x8_0_1 (inRange (F := F) q))
    (Host.gather gather_S65536x8_S4096x512x1_S4096x512x8_2_0_n_n_0_2_18 grid (rowIndex (F := F) q))
    (broadcastInDim S4096x512x8 ![] bcast_S_S4096x512x8 (constant S_ .f32 0x7FC00000#32))

/-- The weight matrix: the gathered rows, eight entries each, laid out as 4096 rows of 4096. -/
def weights (grid : (⟨S65536x8, .f32⟩ : BufTy).Contents (Elt F)) (q : (⟨S4096x512, .i32⟩ : BufTy).Contents (Elt F)) :
    (⟨S4096x4096, .f32⟩ : BufTy).Contents (Elt F) :=
  shapeCast S4096x4096 (taken grid q) shapeCasts_S4096x512x8_S4096x4096

variable (m : (ℓ : Loc nD τ sig) → Buf (Elt F) ℓ)

/-- The left operand as the launch finds it: the input matrix, its float format changed. -/
theorem left_eq (c : Dev nD) :
    V m c main_call0_v2 = truncf .bf16 (m ((c : Thread nD τ).loc main_arg0)) bitsLt_bf16_f32 := by
  dsimp only [V, hostOps0]
  after_results_simp
  rfl

end Cert.KernelIdeal.HostPrefix

end
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.HostRight.lean ====
/-
  The kernel's right operand as the launch finds it: the weight matrix (the gathered codebook rows reshaped to
  [4096, 4096]) after the change of float format.

  The host operations before the launch are read one by one at the buffer each writes. The inlined values are
  moved to their buffer's spelling of its type and back, which cancels; at the two arguments, at the gathered
  array, at the reshaped matrix and at the operand itself the move is the identity by computation. What is left
  is the stated term with its definitions opened.
-/
import proofs.«142544_j86363202388343_1_alg».proof.Proof.HostPrefix
import proofs.«142544_j86363202388343_1_alg».proof.Proof.LibTypedRefCasts

noncomputable section

open Idealize.ShloMosaic Idealize.ShloMosaic.TcCoe Idealize.SL.Sem Idealize.ShloMosaic.StableHlo

namespace Cert.KernelIdeal.HostPrefix

open Cert.KernelIdeal Cert.KernelIdeal.Gen

variable {F : FTy → Type} [FloatOps F]

/-- At a literal buffer the move between the two spellings of its type is the identity: at the index
    argument, … -/
private theorem ofBuf_arg1 (v : (main_arg1 : Ref sig .tc).ty.Contents (Elt F)) :
    (.of main_arg1 : TRef sig ⟨S4096x512, .i32⟩).ofBuf v = v := rfl
/-- … at the codebook argument, … -/
private theorem ofBuf_arg2 (v : (main_arg2 : Ref sig .tc).ty.Contents (Elt F)) :
    (.of main_arg2 : TRef sig ⟨S65536x8, .f32⟩).ofBuf v = v := rfl
/-- … at the gathered array's buffer, … -/
private theorem toBuf_v0 (v : (⟨S4096x512x8, .f32⟩ : BufTy).Contents (Elt F)) :
    (.of main_call0_v0 : TRef sig ⟨S4096x512x8, .f32⟩).toBuf v = v := rfl
/-- … at the reshaped matrix's buffer, … -/
private theorem ofBuf_v1 (v : (main_call0_v1 : Ref sig .tc).ty.Contents (Elt F)) :
    (.of main_call0_v1 : TRef sig ⟨S4096x4096, .f32⟩).ofBuf v = v := rfl
/-- … and at the right operand's buffer. -/
private theorem toBuf_v3 (v : (⟨S4096x4096, .bf16⟩ : BufTy).Contents (Elt F)) :
    (.of main_call0_v3 : TRef sig ⟨S4096x4096, .bf16⟩).toBuf v = v := rfl

variable (m : (ℓ : Loc nD τ sig) → Buf (Elt F) ℓ)

/-- The right operand as the launch finds it: the weight matrix, its float format changed. -/
theorem right_eq (c : Dev nD) :
    V m c main_call0_v3
      = truncf .bf16 (weights (m ((c : Thread nD τ).loc main_arg2)) (m ((c : Thread nD τ).loc main_arg1))) bitsLt_bf16_f32 := by
  dsimp only [V, hostOps0]
  after_results_simp
  simp only [Cert.LibTypedRefCasts.ofBuf_toBuf, ofBuf_arg1, ofBuf_arg2, toBuf_v0, ofBuf_v1, toBuf_v3]
  rfl

end Cert.KernelIdeal.HostPrefix

end
-- ==== Proof.KernelValue.lean ====
/-
  The kernel's result array is the product of the input matrix with the transpose of the weight matrix.

  A grid point t = 16 i + 4 j + k works on output tile (i, j) at step k of four. Over the extended reals:
    * the two staged tiles at point t are the input matrix's tile (i, k) and the weight matrix's tile (j, k)
      (the changes of float format in front of the launch are the identity);
    * so one step adds to the accumulator's entry (p, q) the share of the columns 1024 k .. 1024 k + 1023 of entry
      (1024 i + p, 1024 j + q) of the product;
    * by induction along a run of four points, after step k the accumulator holds 0 plus the shares of the column
      tiles 0 .. k, in that order;
    * at step 3 that is the whole sum (four consecutive runs of 1024 terms make the sum of 4096 terms), and it is what
      the point writes back to tile (i, j) of the result;
    * the sixteen tiles written back at the points with k = 3 cover the result.
-/
import proofs.«142544_j86363202388343_1_alg».proof.Proof.Gen.KernelIdeal.Value
import proofs.«142544_j86363202388343_1_alg».proof.Proof.Pieces
import proofs.«142544_j86363202388343_1_alg».proof.Proof.TileUpdate
import proofs.«142544_j86363202388343_1_alg».proof.Proof.BlockReads
import proofs.«142544_j86363202388343_1_alg».proof.Proof.HostPrefix
import proofs.«142544_j86363202388343_1_alg».proof.Proof.HostRight
import proofs.«142544_j86363202388343_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.Gemm

variable (m : (ℓ : Loc nD τ sig) → Buf (Elt Ideal) ℓ) (ρ : Dev nD → PrngReg)

/-! Throughout, x stands for the matrix the left staged array holds at launch and w for the one the right staged
    array holds (hypotheses hx, hw: each staged array is its matrix after a change of float format). They are the
    input matrix and the weight matrix; that is only used at the very end. -/

/-- The left tile of point t. -/
abbrev ltile (c : Dev nD) (t : Fin cfg0.N) : FVec Ideal S1024x1024 .bf16 := iblk m c 0 t
/-- The right tile of point t. -/
abbrev rtile (c : Dev nD) (t : Fin cfg0.N) : FVec Ideal S1024x1024 .bf16 := iblk m c 1 t
/-- The accumulator after point n. -/
abbrev accAfter (c : Dev nD) (n : ℕ) (h : n < cfg0.N) : FVec Ideal S1024x1024 .f32 := (outsAt0 m c n h).2

/-- The left tile at point t = 16 i + 4 j + k is x's tile (i, k). -/
theorem left_entry (c : Dev nD) (x : Mat) (hx : V m c main_call0_v2 = truncf .bf16 x bitsLt_bf16_f32)
    (t : Fin cfg0.N) (p k : Fin 1024) :
    ltile m c t (ix2 p k) = x (ix2 (at4096 (t.val / 16) p) (at4096 (t.val % 4) k)) :=
  (Blocks.left_read (V m c main_call0_v2) t p k).trans ((congrFun hx _).trans (truncf_apply _ _ _))

/-- The right tile at point t is w's tile (j, k). -/
theorem right_entry (c : Dev nD) (w : Mat) (hw : V m c main_call0_v3 = truncf .bf16 w bitsLt_bf16_f32)
    (t : Fin cfg0.N) (q k : Fin 1024) :
    rtile m c t (ix2 q k) = w (ix2 (at4096 (t.val / 4 % 4) q) (at4096 (t.val % 4) k)) :=
  (Blocks.right_read (V m c main_call0_v3) t q k).trans ((congrFun hw _).trans (truncf_apply _ _ _))

/-- Rows p and q of the two tiles at point t contracted: column tile k's share of the product's entry. -/
theorem step_sum (c : Dev nD) (x w : Mat) (hx : V m c main_call0_v2 = truncf .bf16 x bitsLt_bf16_f32)
    (hw : V m c main_call0_v3 = truncf .bf16 w bitsLt_bf16_f32) (t : Fin cfg0.N) (p q : Fin 1024) :
    ∑ k : Fin 1024, ltile m c t (ix2 p k) * rtile m c t (ix2 q k)
      = tileSum x w (at4096 (t.val / 16) p) (at4096 (t.val / 4 % 4) q) (t.val % 4) := by
  unfold tileSum
  refine Finset.sum_congr rfl fun k _ => ?_
  rw [left_entry m c x hx, right_entry m c w hw]

/-- Zero plus the shares of the column tiles 0 .. s, added in that order. -/
def partialSum (x w : Mat) (i j : Fin 4096) : ℕ → EReal
  | 0 => 0 + tileSum x w i j 0
  | s + 1 => partialSum x w i j s + tileSum x w i j (s + 1)

/-- The accumulator after a point depends on the point's number only. -/
theorem same (c : Dev nD) (u v : ℕ) (hu : u < cfg0.N) (hv : v < cfg0.N) (e : u = v) :
    accAfter m c u hu = accAfter m c v hv := by
  subst e; rfl

/-- After a first step (k = 0) the accumulator's entry is zero plus this step's share. -/
theorem scratch_first (c : Dev nD) (x w : Mat) (hx : V m c main_call0_v2 = truncf .bf16 x bitsLt_bf16_f32)
    (hw : V m c main_call0_v3 = truncf .bf16 w bitsLt_bf16_f32) (t : Fin cfg0.N) (h0 : t.val % 4 = 0) (p q : Fin 1024) :
    accAfter m c t.val t.isLt (ix2 p q)
      = 0 + tileSum x w (at4096 (t.val / 16) p) (at4096 (t.val / 4 % 4) q) (t.val % 4) := by
  have h1 : ¬t.val % 4 = 3 := by omega
  show (outsAt0 m c t.val t.isLt).2 (ix2 p q) = _
  rw [outsAt0_A m c t h0 h1]
  dsimp only
  refine (congrFun (Pieces.acc_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 p q)).trans ?_
  refine (Tile.update_apply _ (ltile m c t) (rtile m c t) p q).trans ?_
  rw [Tile.zero_apply, step_sum m c x w hx hw]

/-- After a later step the accumulator's entry is what the point before left plus this step's share. -/
theorem scratch_next (c : Dev nD) (x w : Mat) (hx : V m c main_call0_v2 = truncf .bf16 x bitsLt_bf16_f32)
    (hw : V m c main_call0_v3 = truncf .bf16 w bitsLt_bf16_f32) (t : Fin cfg0.N) (h0 : ¬t.val % 4 = 0) (p q : Fin 1024) :
    accAfter m c t.val t.isLt (ix2 p q)
      = accAfter m c (t.val - 1) (Nat.lt_of_le_of_lt (Nat.sub_le _ _) t.isLt) (ix2 p q)
        + tileSum x w (at4096 (t.val / 16) p) (at4096 (t.val / 4 % 4) q) (t.val % 4) := by
  show (outsAt0 m c t.val t.isLt).2 (ix2 p q) = _
  by_cases h1 : t.val % 4 = 3
  · rw [outsAt0_C m c t h0 h1]
    dsimp only
    refine (congrFun (Pieces.acc_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 p q)).trans ?_
    refine (Tile.update_apply _ (ltile m c t) (rtile m c t) p q).trans ?_
    rw [step_sum m c x w hx hw]
  · rw [outsAt0_B m c t h0 h1]
    dsimp only
    refine (congrFun (Pieces.acc_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 p q)).trans ?_
    refine (Tile.update_apply _ (ltile m c t) (rtile m c t) p q).trans ?_
    rw [step_sum m c x w hx hw]

/-- Along the run of four points that starts at b (a multiple of 4): after step s the accumulator's entry (p, q)
    is zero plus the shares of the column tiles 0 .. s of the product's entry, by induction on s. -/
theorem scratch_entry (c : Dev nD) (x w : Mat) (hx : V m c main_call0_v2 = truncf .bf16 x bitsLt_bf16_f32)
    (hw : V m c main_call0_v3 = truncf .bf16 w bitsLt_bf16_f32) (b : ℕ) (hb : b % 4 = 0) (p q : Fin 1024) :
    ∀ (s : ℕ) (_ : s ≤ 3) (h : b + s < cfg0.N),
      accAfter m c (b + s) h (ix2 p q) = partialSum x w (at4096 (b / 16) p) (at4096 (b / 4 % 4) q) s
  | 0, _, h => by
    refine (scratch_first m c x w hx hw ⟨b + 0, h⟩ (by show (b + 0) % 4 = 0; omega) p q).trans ?_
    show 0 + tileSum _ _ (at4096 ((b + 0) / 16) p) (at4096 ((b + 0) / 4 % 4) q) ((b + 0) % 4)
      = 0 + tileSum _ _ (at4096 (b / 16) p) (at4096 (b / 4 % 4) q) 0
    rw [Nat.add_zero, hb]
  | s + 1, hs, h => by
    have hN : b + (s + 1) < 64 := lt_of_lt_of_eq h (show cfg0.N = 64 from N_0)
    refine (scratch_next m c x w hx hw ⟨b + (s + 1), h⟩ (by show ¬(b + (s + 1)) % 4 = 0; omega) p q).trans ?_
    have ih := scratch_entry c x w hx hw b hb p q s (by omega) (Nat.lt_of_succ_lt h)
    rw [same m c _ (b + s) _ (Nat.lt_of_succ_lt h) (by show b + (s + 1) - 1 = b + s; omega), ih]
    have e1 : (b + (s + 1)) / 16 = b / 16 := by omega
    have e2 : (b + (s + 1)) / 4 % 4 = b / 4 % 4 := by omega
    have e3 : (b + (s + 1)) % 4 = s + 1 := by omega
    show partialSum _ _ _ _ s + tileSum _ _ (at4096 ((b + (s + 1)) / 16) p) (at4096 ((b + (s + 1)) / 4 % 4) q) ((b + (s + 1)) % 4) = _
    rw [e1, e2, e3]
    rfl

/-- After a last step (k = 3) the accumulator's entry is the product's entry. -/
theorem last_entry (c : Dev nD) (x w : Mat) (hx : V m c main_call0_v2 = truncf .bf16 x bitsLt_bf16_f32)
    (hw : V m c main_call0_v3 = truncf .bf16 w bitsLt_bf16_f32) (t : Fin cfg0.N) (h3 : t.val % 4 = 3) (p q : Fin 1024) :
    accAfter m c t.val t.isLt (ix2 p q)
      = product x w (ix2 (at4096 (t.val / 16) p) (at4096 (t.val / 4 % 4) q)) := by
  have hlt : t.val - 3 + 3 < cfg0.N := by have := t.isLt; omega
  rw [same m c t.val (t.val - 3 + 3) t.isLt hlt (by omega),
    scratch_entry m c x w hx hw (t.val - 3) (by omega) p q 3 (le_refl 3) hlt]
  have e1 : (t.val - 3) / 16 = t.val / 16 := by omega
  have e2 : (t.val - 3) / 4 % 4 = t.val / 4 % 4 := by omega
  rw [e1, e2]
  exact four_tiles _ _ _ _

/-- At a last step the output tile receives what the accumulator ends with. -/
theorem out_tile (c : Dev nD) (t : Fin cfg0.N) (h0 : ¬t.val % 4 = 0) (h3 : t.val % 4 = 3) :
    out0_C_2 c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h3) (iblk m c 0 t) (iblk m c 1 t)
        (outsAt0 m c (t.val - 1) (Nat.lt_of_le_of_lt (Nat.sub_le _ _) t.isLt)).2
      = (outsAt0 m c t.val t.isLt).2 := by
  rw [outsAt0_C m c t h0 h3]
  dsimp only
  exact (Pieces.out_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h3) (iblk m c 0 t) (iblk m c 1 t)
      (outsAt0 m c (t.val - 1) (Nat.lt_of_le_of_lt (Nat.sub_le _ _) t.isLt)).2).trans
    (Pieces.acc_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h3) (iblk m c 0 t) (iblk m c 1 t)
      (outsAt0 m c (t.val - 1) (Nat.lt_of_le_of_lt (Nat.sub_le _ _) t.isLt)).2).symm

/-- What a point that writes back (k = 3) writes is its tile of the product. -/
theorem flushed_eq (c : Dev nD) (x w : Mat) (hx : V m c main_call0_v2 = truncf .bf16 x bitsLt_bf16_f32)
    (hw : V m c main_call0_v3 = truncf .bf16 w bitsLt_bf16_f32) (t : Fin cfg0.N) (hf : (cfg0.win 2).flush t = true) :
    (dats m 0 c).flushed 2 t = ((cfg0.win 2).blk t).view.read (Elt Ideal) (product x w) := by
  have h3 : t.val % 4 = 3 := (flush0_2 t).mp hf
  have h0 : ¬t.val % 4 = 0 := by omega
  rw [Value.flushed2_C m c t h0 h3, out_tile m c t h0 h3]
  funext y
  obtain ⟨p, q, rfl⟩ : ∃ (p q : Fin 1024), y = ix2 p q := ⟨y 0, y 1, eq_ix2 y⟩
  rw [Blocks.out_read]
  exact last_entry m c x w hx hw t h3 p q

/-- The result array after the run. -/
theorem final_eq (c : Dev nD) (x w : Mat) (hx : V m c main_call0_v2 = truncf .bf16 x bitsLt_bf16_f32)
    (hw : V m c main_call0_v3 = truncf .bf16 w bitsLt_bf16_f32) : (dats m 0 c).arrAt 2 cfg0.N = product x w :=
  (dats m 0 c).arrAt_eq_of_cover 2 (product x w) (flushed_eq m c x w hx hw) Blocks.covered

/-- The input matrix. -/
abbrev xin (c : Dev nD) : Mat := m ((c : Thread nD τ).loc main_arg0)

/-- The weight matrix: the gathered codebook rows as 4096 rows of 4096. -/
abbrev wmat (c : Dev nD) : Mat :=
  HostPrefix.weights (m ((c : Thread nD τ).loc main_arg2)) (m ((c : Thread nD τ).loc main_arg1))

/-- The kernel's run: the result array ends at the product of the input matrix with the transpose of the weight
    matrix, the arguments unchanged. -/
theorem run : θ_run defs (onTc (τ := τ) (main (F := Ideal))) ⟨m, fun _ => 0, ρ⟩ fun r => ∀ c : Dev nD,
      r.2.mem ((c : Thread nD τ).loc main_v0) = product (xin m c) (wmat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
      (final_eq m c (xin m c) (wmat m c) (HostPrefix.left_eq m c) (HostPrefix.right_eq m c)), (h c).2⟩)
    (Value.run_blocks m ρ)

end Cert.KernelIdeal.KV

end
-- ==== Proof.RefRun.lean ====
/-
  What the reference program computes.

  The program gathers rows of a table: an index array q (4096 x 512, signed 32-bit) is wrapped
  (a negative index has the table's row count 65536 added), the wrapped index is tested to lie in
  0 .. 65535, the table's 8-wide rows are gathered at it into a 4096 x 512 x 8 array, and the
  rows whose index failed the test are filled with one fixed NaN word. The gathered array is
  re-read row-major as a 4096 x 4096 matrix W, W is transposed, and the result is the matrix
  product  x * W^T  of the first argument with it.

  The outlined gather function (twenty-three operations, one of them a nested call that is a single
  select) is listed here in the caller's place over the call's own buffers, followed by the three
  operations of the caller. The list is the program (main_eq), each operation touches device
  buffers only (ops_sub), and the fold of the operations' results at the result buffer is the
  composed term stated in run.
-/
import proofs.«142544_j86363202388343_1_alg».proof.Proof.Gen.ReferenceIdeal
import Idealize.ShloMosaic.Lib.StableHlo.Run
import proofs.«142544_j86363202388343_1_alg».proof.Proof.LibTypedRefCasts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An index below zero counts from the end: 65536 is added to it. -/
def wrapped (q : (⟨S4096x512, .i32⟩ : BufTy).Contents (Elt F)) : (⟨S4096x512, .i32⟩ : BufTy).Contents (Elt F) :=
  select (cmpi .slt q (broadcastInDim S4096x512 ![] bcast_S_S4096x512 (constantI S_ 32 0#32)))
    (addi q (broadcastInDim S4096x512 ![] bcast_S_S4096x512 (constantI S_ 32 65536#32))) q

/-- The wrapped indices as one-component index vectors. -/
def rowIndex (q : (⟨S4096x512, .i32⟩ : BufTy).Contents (Elt F)) : (⟨S4096x512x1, .i32⟩ : BufTy).Contents (Elt F) :=
  broadcastInDim S4096x512x1 ![0, 1] bcast_S4096x512_S4096x512x1_0_1 (wrapped (F := F) q)

/-- Whether a wrapped index names a row of the table: 0 ≤ index ≤ 65535. -/
def inRange (q : (⟨S4096x512, .i32⟩ : BufTy).Contents (Elt F)) : (⟨S4096x512, .i1⟩ : BufTy).Contents (Elt F) :=
  Host.reduce IntOp.andi
    (andi (cmpi .sge (rowIndex (F := F) q) (broadcastInDim S4096x512x1 ![] bcast_S_S4096x512x1 (constantI S_ 32 0#32)))
      (cmpi .sle (rowIndex (F := F) q) (broadcastInDim S4096x512x1 ![0, 1, 2] bcast_S1x1x1_S4096x512x1_0_1_2
        (broadcastInDim S1x1x1 ![2] bcast_S1_S1x1x1_2 (constantI S1 32 65535#32)))))
    (constantI S_ 1 1#1) reducesTo_S4096x512x1_S4096x512_d2 h_S_

/-- The gather function's 23 operations composed: the rows of grid gathered at the (wrapped, range-checked)
    indices q, out-of-range rows filled with the NaN word. -/
def taken (grid : (⟨S65536x8, .f32⟩ : BufTy).Contents (Elt F)) (q : (⟨S4096x512, .i32⟩ : BufTy).Contents (Elt F)) :
    (⟨S4096x512x8, .f32⟩ : BufTy).Contents (Elt F) :=
  select (broadcastInDim S4096x512x8 ![0, 1] bcast_S4096x512_S4096x512x8_0_1 (inRange (F := F) q))
    (Host.gather gather_S65536x8_S4096x512x1_S4096x512x8_2_0_n_n_0_2_18 grid (rowIndex (F := F) q))
    (broadcastInDim S4096x512x8 ![] bcast_S_S4096x512x8 (constant S_ .f32 0x7FC00000#32))

/-- The gathered rows re-read row-major as the [4096, 4096] weight matrix. -/
def weights (grid : (⟨S65536x8, .f32⟩ : BufTy).Contents (Elt F)) (q : (⟨S4096x512, .i32⟩ : BufTy).Contents (Elt F)) :
    (⟨S4096x4096, .f32⟩ : BufTy).Contents (Elt F) :=
  shapeCast S4096x4096 (taken grid q) shapeCasts_S4096x512x8_S4096x4096

/-- The program's 26 operations in order: the gather function's 23 in its call's place, over the call's
    buffers (its nested call is the one select into the call's fourth index buffer), then the reshape,
    the transpose and the product. -/
abbrev ops : List (HloOp τ sig (Elt F)) :=
  [ TRef.nullary main_call0.c (constantI S_ 32 0#32),
    TRef.unary main_call0.c main_call0.v0 (broadcastInDim S4096x512 ![] bcast_S_S4096x512),
    TRef.binary (.of main_arg1) main_call0.v0 main_call0.v1 (cmpi .slt),
    TRef.nullary main_call0.c_0 (constantI S_ 32 65536#32),
    TRef.unary main_call0.c_0 main_call0.v2 (broadcastInDim S4096x512 ![] bcast_S_S4096x512),
    TRef.binary (.of main_arg1) main_call0.v2 main_call0.v3 addi,
    TRef.ternary main_call0.v1 main_call0.v3 (.of main_arg1) main_call0.call0.v0 select,
    TRef.unary main_call0.call0.v0 main_call0.v5 (broadcastInDim S4096x512x1 ![0, 1] bcast_S4096x512_S4096x512x1_0_1),
    TRef.nullary main_call0.c_1 (constantI S1 32 65535#32),
    TRef.nullary main_call0.c_2 (constantI S_ 32 0#32),
    TRef.unary main_call0.c_2 main_call0.v6 (broadcastInDim S4096x512x1 ![] bcast_S_S4096x512x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x512x1 ![0, 1, 2] bcast_S1x1x1_S4096x512x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x512x1_S4096x512_d2 h_S_),
    TRef.binary (.of main_arg2) main_call0.v5 main_call0.v13 (fun x i => Host.gather gather_S65536x8_S4096x512x1_S4096x512x8_2_0_n_n_0_2_18 x i),
    TRef.unary main_call0.v12 main_call0.v14 (broadcastInDim S4096x512x8 ![0, 1] bcast_S4096x512_S4096x512x8_0_1),
    TRef.nullary main_call0.cst (constant S_ .f32 0x7FC00000#32),
    TRef.unary main_call0.cst main_call0.v15 (broadcastInDim S4096x512x8 ![] bcast_S_S4096x512x8),
    TRef.ternary main_call0.v14 main_call0.v13 main_call0.v15 main_call0.v16 select,
    reshape main_v0 main_v1 rfl shapeCasts_S4096x512x8_S4096x4096,
    unary main_v1 main_v2 ((transpose S4096x4096 [1, 0] · transposes_S4096x4096_S4096x4096_1_0) : (⟨S4096x4096, .f32⟩ : BufTy).Contents (Elt F) → (⟨S4096x4096, .f32⟩ : BufTy).Contents (Elt F)),
    binary main_arg0 main_v2 main_v3 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

set_option maxRecDepth 1024 in
/-- The program is that straight line: the two outlined functions unfolded at their calls, both sides are one
    chain of operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    unary_bufs_sub .., binary_bufs_sub ..⟩

/-- At a literal buffer the move between the two spellings of its type is the identity: at the index
    argument, … -/
private theorem ofBuf_arg1 (v : (main_arg1 : Ref sig .tc).ty.Contents (Elt F)) :
    (.of main_arg1 : TRef sig ⟨S4096x512, .i32⟩).ofBuf v = v := rfl
/-- … at the table argument, … -/
private theorem ofBuf_arg2 (v : (main_arg2 : Ref sig .tc).ty.Contents (Elt F)) :
    (.of main_arg2 : TRef sig ⟨S65536x8, .f32⟩).ofBuf v = v := rfl
/-- … and at the gathered array's own buffer. -/
private theorem toBuf_v0 (v : (⟨S4096x512x8, .f32⟩ : BufTy).Contents (Elt F)) :
    (.of main_v0 : TRef sig ⟨S4096x512x8, .f32⟩).toBuf v = v := rfl

/-- The fold of the 26 operations at the result buffer, from any contents: the product of the first argument's
    contents with the transposed weight matrix of the other two. Each operation's result is read at its own
    buffer; the moves between the two spellings of a buffer's type cancel (in pairs at the inlined values, by
    computation at the arguments and at the gathered array); what is left is the stated term with the five
    definitions opened. -/
theorem out_eq (V : Valuation τ sig (Elt F)) :
    after ops V (main_v3 : DevRef τ sig)
      = Host.dotGeneral dot_S4096x4096_S4096x4096_S4096x4096_1_0_0_1_n_n none (V (main_arg0 : DevRef τ sig))
          (transpose S4096x4096 [1, 0] (weights (V (main_arg2 : DevRef τ sig)) (V (main_arg1 : DevRef τ sig)))
            transposes_S4096x4096_S4096x4096_1_0) := by
  after_results_simp
  simp only [Cert.LibTypedRefCasts.ofBuf_toBuf, ofBuf_arg1, ofBuf_arg2, toBuf_v0]
  rfl

/-- On every device, for any float values, from any memory with zero counters: every weakly fair execution of
    the program terminates with the result buffer at the product of the first argument with the transposed
    weight matrix (the rows of the third argument gathered at the second argument's indices, reshaped), and
    the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = Host.dotGeneral dot_S4096x4096_S4096x4096_S4096x4096_1_0_0_1_n_n none (m ((c.tc : Thread nD τ).loc main_arg0)) (transpose S4096x4096 [1, 0] (weights (m ((c.tc : Thread nD τ).loc main_arg2)) (m ((c.tc : Thread nD τ).loc main_arg1))) transposes_S4096x4096_S4096x4096_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v3).trans (out_eq (launchContents m c)),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.RefRun

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibTransposeMatrix.lean ====
import Idealize.ShloMosaic.Lib.ValueIdx
import Idealize.ShloMosaic.Lib.Pipeline.Value

/-!
# A matrix transpose read at an entry

The transpose of a matrix `[a, b]` with the permutation `[1, 0]` is the matrix `[b, a]` whose entry `(p, q)` is the
operand's entry `(q, p)`, for any extents (a column `[a, 1]` and a row `[1, b]` included). No proof enumerates an extent.
-/

namespace Cert.LibTransposeMatrix

open Idealize.ShloMosaic Idealize.ShloMosaic.ValueIdx

/-- The transpose of `w : [a, b]` reads, at `(p, q)`, the operand at `(q, p)`. -/
theorem transpose_ab_ba_apply {α : Type} {a b : ℕ} (w : (⟨2, ![a, b]⟩ : Shape).Idx → α)
    (h : (⟨2, ![a, b]⟩ : Shape).Transposes [1, 0] ⟨2, ![b, a]⟩) (p : Fin b) (q : Fin a) :
    transpose ⟨2, ![b, a]⟩ [1, 0] w h (ix2 p q) = w (ix2 q p) := by
  refine transpose_apply [1, 0] w h (ix2 p q) (ix2 q p) fun i => ?_
  match i with
  | ⟨0, _⟩ => rfl
  | ⟨1, _⟩ => rfl

end Cert.LibTransposeMatrix
-- ==== Proof.RefValue.lean ====
/-
  The reference's result read at one entry, over the extended reals.

  The result is the matrix product of x (4096 x 4096) with the transpose of the weight matrix w
  (4096 x 4096), contracting x's columns with the transpose's rows. Its entry (i, j) is therefore
  the sum over the shared column k of  x(i, k) * w(j, k):  row i of x against row j of w.
  The product's entry is the plain contraction (rows against columns), and the transpose's entry
  (k, j) is w's entry (j, k).
-/
import proofs.«142544_j86363202388343_1_alg».proof.Proof.Gen.ReferenceIdeal
import proofs.«142544_j86363202388343_1_alg».proof.Proof.LibMatmulRowsByCols
import proofs.«142544_j86363202388343_1_alg».proof.Proof.LibTransposeMatrix

noncomputable section

namespace Cert.ReferenceIdeal.RefValue

open Cert.ReferenceIdeal Cert.ReferenceIdeal.Gen Idealize.ShloMosaic

/-- Entry (i, j) of  x * w^T  is  Σₖ x(i, k) · w(j, k). -/
theorem result_apply (x w : FVec Ideal S4096x4096 .f32) (i j : Fin 4096) :
    Host.dotGeneral (F := Ideal) dot_S4096x4096_S4096x4096_S4096x4096_1_0_0_1_n_n none x
        (transpose S4096x4096 [1, 0] w transposes_S4096x4096_S4096x4096_1_0) (ValueIdx.ix2 i j)
      = ∑ k : Fin 4096, x (ValueIdx.ix2 i k) * w (ValueIdx.ix2 j k) := by
  refine (Cert.RowsByCols.dotGeneral_apply (N := 4096) (K := 4096) (M := 4096)
    dot_S4096x4096_S4096x4096_S4096x4096_1_0_0_1_n_n ⟨rfl, rfl, rfl, rfl, rfl, rfl⟩ none x
    (transpose S4096x4096 [1, 0] w transposes_S4096x4096_S4096x4096_1_0) i j).trans ?_
  refine Finset.sum_congr rfl fun k _ => ?_
  exact congrArg (x (ValueIdx.ix2 i k) * ·)
    (Cert.LibTransposeMatrix.transpose_ab_ba_apply (a := 4096) (b := 4096) w
      transposes_S4096x4096_S4096x4096_1_0 k j)

end Cert.ReferenceIdeal.RefValue

end
-- ==== Proof.WeightsAgree.lean ====
/-
  The kernel's program and the reference gather the same weight matrix.

  Both programs run the same operations on the codebook and the index array before anything else: wrap the
  negative indices, test the wrapped index against the codebook's row range, gather the rows, fill the rows
  that failed the test with the not-a-number word, and reshape to 4096 rows of 4096. Each program states
  these over its own names for the same shapes and its own proofs of the same side conditions, so the two
  values are equal definition by definition, innermost first; no operation is opened.
-/
import proofs.«142544_j86363202388343_1_alg».proof.Proof.HostPrefix
import proofs.«142544_j86363202388343_1_alg».proof.Proof.RefRun

noncomputable section

namespace Cert.HostAgree

open Idealize.ShloMosaic

variable {F : FTy → Type} [FloatOps F]

/-- The wrapped indices agree. -/
theorem wrapped_agree (q : (⟨Cert.ReferenceIdeal.S4096x512, .i32⟩ : BufTy).Contents (Elt F)) :
    Cert.KernelIdeal.HostPrefix.wrapped (F := F) q = Cert.ReferenceIdeal.RefRun.wrapped (F := F) q := rfl

/-- The index vectors agree. -/
theorem rowIndex_agree (q : (⟨Cert.ReferenceIdeal.S4096x512, .i32⟩ : BufTy).Contents (Elt F)) :
    Cert.KernelIdeal.HostPrefix.rowIndex (F := F) q = Cert.ReferenceIdeal.RefRun.rowIndex (F := F) q := by
  unfold Cert.KernelIdeal.HostPrefix.rowIndex Cert.ReferenceIdeal.RefRun.rowIndex
  rw [wrapped_agree q]

/-- The range tests agree. -/
theorem inRange_agree (q : (⟨Cert.ReferenceIdeal.S4096x512, .i32⟩ : BufTy).Contents (Elt F)) :
    Cert.KernelIdeal.HostPrefix.inRange (F := F) q = Cert.ReferenceIdeal.RefRun.inRange (F := F) q := by
  unfold Cert.KernelIdeal.HostPrefix.inRange Cert.ReferenceIdeal.RefRun.inRange
  rw [rowIndex_agree q]

/-- The gathered rows agree. -/
theorem taken_agree (g : (⟨Cert.ReferenceIdeal.S65536x8, .f32⟩ : BufTy).Contents (Elt F))
    (q : (⟨Cert.ReferenceIdeal.S4096x512, .i32⟩ : BufTy).Contents (Elt F)) :
    Cert.KernelIdeal.HostPrefix.taken (F := F) g q = Cert.ReferenceIdeal.RefRun.taken (F := F) g q := by
  unfold Cert.KernelIdeal.HostPrefix.taken Cert.ReferenceIdeal.RefRun.taken
  rw [inRange_agree q, rowIndex_agree q]
  rfl

/-- The weight matrices agree. -/
theorem weights_agree (g : (⟨Cert.ReferenceIdeal.S65536x8, .f32⟩ : BufTy).Contents (Elt F))
    (q : (⟨Cert.ReferenceIdeal.S4096x512, .i32⟩ : BufTy).Contents (Elt F)) :
    Cert.KernelIdeal.HostPrefix.weights (F := F) g q = Cert.ReferenceIdeal.RefRun.weights (F := F) g q := by
  unfold Cert.KernelIdeal.HostPrefix.weights Cert.ReferenceIdeal.RefRun.weights
  rw [taken_agree g q]

end Cert.HostAgree

end
-- ==== Proof.lean ====
/-
  The certificate of a tiled matrix product against a whole one.

  Both programs first gather rows of a codebook (the same operations on the same arguments) and lay them out as a
  weight matrix W [4096, 4096]; with x the input matrix [4096, 4096] both then return x times the transpose of W.
  The kernel does it in 1024 x 1024 tiles on a 4 x 4 x 4 grid, accumulating the four column tiles of an output tile
  in a scratch accumulator that is zeroed at the first of the four steps and copied out at the last; the reference
  transposes W and takes one whole contraction. Over the extended reals the changes of float format are the
  identity, and the two results are equal entry by entry because a sum of 4096 terms is the sum of its four
  consecutive runs of 1024 terms — associativity of addition only, so the finiteness of the inputs is never used.

  The three frames: the two kernel programs' by their frame certificates, the reference's by its run with the
  result dropped. The idealized kernel is the kernel's own text read over the extended reals (no rewrite), so the
  preservation claim is trivial.
-/
import proofs.«142544_j86363202388343_1_alg».proof.Defs
import proofs.«142544_j86363202388343_1_alg».proof.Proof.Gen.Kernel
import proofs.«142544_j86363202388343_1_alg».proof.Proof.Gen.Kernel.Skeleton
import proofs.«142544_j86363202388343_1_alg».proof.Proof.Gen.Kernel.Launch
import proofs.«142544_j86363202388343_1_alg».proof.Proof.Gen.Kernel.Points
import proofs.«142544_j86363202388343_1_alg».proof.Proof.Gen.Kernel.Frame
import proofs.«142544_j86363202388343_1_alg».proof.Proof.Gen.KernelIdeal
import proofs.«142544_j86363202388343_1_alg».proof.Proof.Gen.KernelIdeal.Skeleton
import proofs.«142544_j86363202388343_1_alg».proof.Proof.Gen.KernelIdeal.Launch
import proofs.«142544_j86363202388343_1_alg».proof.Proof.Gen.KernelIdeal.Points
import proofs.«142544_j86363202388343_1_alg».proof.Proof.Gen.KernelIdeal.Frame
import proofs.«142544_j86363202388343_1_alg».proof.Proof.Gen.ReferenceIdeal
import proofs.«142544_j86363202388343_1_alg».proof.Proof.Gen.Pre_finite_inputs
import proofs.«142544_j86363202388343_1_alg».proof.Proof.KernelValue
import proofs.«142544_j86363202388343_1_alg».proof.Proof.RefRun
import proofs.«142544_j86363202388343_1_alg».proof.Proof.RefValue
import proofs.«142544_j86363202388343_1_alg».proof.Proof.WeightsAgree
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.RefRun.run (F := Ideal) m ρ)

/-- From arguments that agree, the kernel's result array ends at the product of the input matrix with the transpose
    of the weight matrix, and the reference's at the whole contraction against the transposed weight matrix: entry
    (i, j) of both is the sum over k of x(i, k) * W(j, k), and the two weight matrices are the same gathered rows. -/
theorem algebraic : Cert.algebraic_KernelIdeal_ReferenceIdeal := by
  intro m ρ m' ρ' _ hagree
  refine ⟨fun c => Cert.Gemm.product (Cert.KernelIdeal.KV.xin m c) (Cert.KernelIdeal.KV.wmat m c),
    Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext idx
  obtain ⟨i, j, rfl⟩ : ∃ (i j : Fin 4096), idx = ix2 i j := ⟨idx 0, idx 1, eq_ix2 idx⟩
  rw [Cert.ReferenceIdeal.RefValue.result_apply, ← Cert.HostAgree.weights_agree]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
